-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1000x1024 : Shape := ⟨2, ![1000, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_

variable [Facts]

def fn {F : FTy → Type} [FloatOps F] (main_arg0 : FVec F S32768x1024 .f32) (main_arg1 : FVec F S1000x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  main_v8
-- ==== Kernel.lean ====
abbrev S32768x1024 : Shape := ⟨2, ![32768, 1024]⟩
abbrev S1000x1024 : Shape := ⟨2, ![1000, 1024]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S32768x1000 : Shape := ⟨2, ![32768, 1000]⟩

abbrev nBuf : Space → Nat
  | .hbm => 13
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1000x1024, .f32⟩
  | .hbm, ⟨2, _⟩ => ⟨S_, .i32⟩
  | .hbm, ⟨3, _⟩ => ⟨S_, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1000, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S1000x1024_S1024x1024_0240_000 : S1000x1024.Pads (![0, 0] : Fin 2 → Nat) ![24, 0] ![0, 0] S1024x1024
  h_S_ : 0 < S_.numel
  bitsLt_bf16_f32 : FTy.bits .bf16 < FTy.bits .f32
  transposes_S1024x1024_S1024x1024_1_0 : S1024x1024.Transposes [1, 0] S1024x1024
  reducesTo_S1024x1024_S1024_d1 : S1024x1024.ReducesTo [1] S1024
  bcast_S1024_S1x1024_1 : S1024.BroadcastsInDim S1x1024 (![1] : Fin 1 → Fin S1x1024.rank)
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1x1024_d1_w32 : S1x1024.Iotas .tc 32 [1]
  natLt_1_32 : 1 < 32
  slices_S32768x1024_S32768x1000_0_0 : S32768x1024.Slices ![0, 0] S32768x1000
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1000x1024 : Shape := ⟨2, ![1000, 1024]⟩
abbrev S_ : Shape := ⟨0, ![]⟩
abbrev S32768 : Shape := ⟨1, ![32768]⟩
abbrev S32768x1 : Shape := ⟨2, ![32768, 1]⟩
abbrev S1000 : Shape := ⟨1, ![1000]⟩
abbrev S32768x1000 : Shape := ⟨2, ![32768, 1000]⟩
abbrev S1x1000 : Shape := ⟨2, ![1, 1000]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1000x1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1000x1024, .f32⟩
  | .hbm, ⟨7, _⟩ => ⟨S_, .f32⟩
  | .hbm, ⟨8, _⟩ => ⟨S1000, .f32⟩
  | .hbm, ⟨9, _⟩ => ⟨S32768x1000, .f32⟩
  | .hbm, ⟨10, _⟩ => ⟨S1x1000, .f32⟩
  | .hbm, ⟨11, _⟩ => ⟨S32768x1000, .f32⟩
  | .hbm, ⟨12, _⟩ => ⟨S32768x1000, .f32⟩
  | .hbm, ⟨13, _⟩ => ⟨S32768x1000, .f32⟩
  | .hbm, ⟨14, _⟩ => ⟨S_, .f32⟩
  | .hbm, ⟨15, _⟩ => ⟨S32768x1000, .f32⟩
  | .hbm, ⟨16, _⟩ => ⟨S32768x1000, .f32⟩
  | .hbm, ⟨17, _⟩ => ⟨S32768x1000, .f32⟩
  | .hbm, ⟨18, _⟩ => ⟨S_, .f32⟩
  | .hbm, ⟨19, _⟩ => ⟨S32768x1000, .f32⟩
  | .hbm, ⟨20, _⟩ => ⟨S32768x1000, .f32⟩
  | .hbm, ⟨21, _⟩ => ⟨S_, .f32⟩
  | .hbm, ⟨22, _⟩ => ⟨S32768x1000, .f32⟩
  | .hbm, ⟨23, _⟩ => ⟨S32768x1000, .f32⟩
  | .hbm, ⟨24, _⟩ => ⟨S_, .f32⟩
  | .hbm, ⟨25, _⟩ => ⟨S32768x1000, .f32⟩
  | .hbm, ⟨26, _⟩ => ⟨S32768x1000, .f32⟩
  | .hbm, ⟨27, _⟩ => ⟨S_, .f32⟩
  | .hbm, ⟨28, _⟩ => ⟨S32768x1000, .f32⟩
  | .hbm, ⟨29, _⟩ => ⟨S32768x1000, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S32768x1000, .f32⟩
  | .hbm, ⟨34, _⟩ => ⟨S32768x1000, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  reducesTo_S1000x1024_S1000_d1 : S1000x1024.ReducesTo [1] S1000
  bcast_S1000_S1x1000_1 : S1000.BroadcastsInDim S1x1000 (![1] : Fin 1 → Fin S1x1000.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  bcast_S_S32768x1000 : S_.BroadcastsInDim S32768x1000 (![] : Fin 0 → Fin S32768x1000.rank)
  reducesTo_S32768x1000_S32768_d1 : S32768x1000.ReducesTo [1] S32768
  dot_S32768x1024_S1000x1024_S32768x1000_1_1_0_0_n_n_wf : DotDims.WF S32768x1024 S1000x1024 S32768x1000 [1] [1] [0] [0] [] []

variable [Facts₀]

def dot_S32768x1024_S1000x1024_S32768x1000_1_1_0_0_n_n : DotDims S32768x1024 S1000x1024 S32768x1000 where
  lhsContracting := [1]
  rhsContracting := [1]
  lhsNonContracting := [0]
  rhsNonContracting := [0]
  lhsBatch := []
  rhsBatch := []
  wf := dot_S32768x1024_S1000x1024_S32768x1000_1_1_0_0_n_n_wf

class Facts : Prop extends Facts₀ where

variable [Facts]
-- ==== Proof.SoftAssign.lean ====
/-
  The function both programs compute, over abstract arrays of extended reals.

  Rows `h n ∈ EReal^1024` (`n < 32768`), centroids `c k ∈ EReal^1024` (`k < 1000`):
    d²(n,k) = max (‖h n‖² + ‖c k‖² − 2·⟨h n, c k⟩) 0          squared distance by the product expansion, clipped at 0
    s(n,k)  = (1 + d²(n,k)/1)^(−1)                              Student-t similarity with one degree of freedom
    q(n,k)  = s(n,k) / Σ_{k' < 1000} s(n,k')                     each row normalised.
  `assign` is that arrangement. `assignPadded` is the other one: the centroid table padded by 24 zero rows to 1024,
  the similarity written as the reciprocal `1 / (1 + d²/1)`, the row sum taken over all 1024 lanes of the similarity
  times a 0/1 lane mask that is 1 below lane 1000. They agree on the first 1000 lanes (`assignPadded_eq`) because
    • on a positive extended real, `+∞` included, the power `x^(−1)` is the reciprocal `1/x`, and `1 + d²/1 ≥ 1`
      (`pow_negOne_eq_div`, `one_add_pos`);
    • a lane with mask 0 contributes `s·0 = 0` to the sum whatever `s` is (on the extended reals `x·0 = 0` for every `x`),
      and a lane below 1000 reads the centroid itself (`sum_mask`).
  No finiteness of the inputs is used.
-/
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-! ## The four float words the programs print, and what three of them denote -/

abbrev w0 : EReal := Ideal.ofBits .f32 0x00000000#32
abbrev w1 : EReal := Ideal.ofBits .f32 0x3F800000#32
abbrev w2 : EReal := Ideal.ofBits .f32 0x40000000#32
abbrev wm1 : EReal := Ideal.ofBits .f32 0xBF800000#32

theorem w0_eq : w0 = 0 := Ideal.ofBits_zero_f32
theorem w1_eq : w1 = 1 := IdealRules.sign_bit.ideal_onePat .f32
theorem wm1_eq : wm1 = -1 := IdealRules.sign_bit.ideal_negOnePat .f32

/-! ## Scalar laws on the extended reals -/

/-- Dividing by one changes nothing, at the infinities too. -/
theorem div_one (x : EReal) : Ideal.div x 1 = x := by
  have h := Ideal.div_coe (y := 1) one_ne_zero x
  rw [EReal.coe_one] at h
  rw [h]; norm_num

/-- On a positive extended real the power with exponent `−1` is the reciprocal: on a positive real both are `x⁻¹`,
    at `+∞` both are `0`. -/
theorem pow_negOne_eq_div {x : EReal} (hx : 0 < x) : Ideal.pow x (-1) = Ideal.div 1 x := by
  induction x using EReal.rec with
  | bot => exact absurd hx (not_lt.mpr bot_le)
  | top =>
    have e : (-1 : EReal) = ((-1 : ℝ) : EReal) := by rw [EReal.coe_neg, EReal.coe_one]
    have h1 : ¬ (0 : EReal) < -1 := by
      rw [e, ← EReal.coe_zero, EReal.coe_lt_coe_iff]; norm_num
    have h2 : ¬ ((-1 : EReal) = 0) := by
      rw [e, ← EReal.coe_zero, EReal.coe_eq_coe_iff]; norm_num
    rw [Ideal.pow_top, if_neg h1, if_neg h2, Ideal.div, if_neg (by exact EReal.top_ne_zero), EReal.inv_top, mul_zero]
  | coe r =>
    have hr : 0 < r := by exact_mod_cast hx
    have e : (-1 : EReal) = ((-1 : ℝ) : EReal) := by rw [EReal.coe_neg, EReal.coe_one]
    rw [e, Ideal.pow_coe_coe, Ideal.div, if_neg (by exact_mod_cast hr.ne'), one_mul, ← EReal.coe_inv]
    exact congrArg _ (Real.rpow_neg_one r)

/-- One plus a clipped quantity over one is positive. -/
theorem one_add_pos (a : EReal) : 0 < (1 : EReal) + Ideal.div (max a 0) 1 := by
  rw [div_one]
  have h0 : (0 : EReal) ≤ max a 0 := le_max_right _ _
  calc (0 : EReal) < 1 := by exact_mod_cast (zero_lt_one : (0 : ℝ) < 1)
    _ = 1 + 0 := (add_zero _).symm
    _ ≤ 1 + max a 0 := add_le_add le_rfl h0

/-! ## The similarity, in its two spellings -/

/-- `1 + max (hs + cs − 2·cr) 0 / 1` from a row's square norm `hs`, a centroid's `cs` and their inner product `cr`. -/
def onePlusDist (hs cs cr : EReal) : EReal := w1 + Ideal.div (max ((hs + cs) - w2 * cr) w0) w1

/-- The similarity as a power with exponent `−1`. -/
def simPow (hs cs cr : EReal) : EReal := Ideal.pow (onePlusDist hs cs cr) wm1
/-- The similarity as a reciprocal. -/
def simInv (hs cs cr : EReal) : EReal := Ideal.div w1 (onePlusDist hs cs cr)

theorem simInv_eq_simPow (hs cs cr : EReal) : simInv hs cs cr = simPow hs cs cr := by
  unfold simInv simPow onePlusDist
  rw [w1_eq, w0_eq, wm1_eq]
  exact (pow_negOne_eq_div (one_add_pos _)).symm

/-! ## The arrays -/

abbrev SRows : Shape := ⟨2, ![32768, 1024]⟩
abbrev SCen : Shape := ⟨2, ![1000, 1024]⟩
abbrev SOut : Shape := ⟨2, ![32768, 1000]⟩
abbrev SOutP : Shape := ⟨2, ![32768, 1024]⟩

variable (h : SRows.Idx → EReal) (c : SCen.Idx → EReal)

/-- A row's square norm, summed from the zero word. -/
def rowSq (n : Fin 32768) : EReal := w0 + ∑ d : Fin 1024, h (ix2 n d) * h (ix2 n d)
/-- A centroid's square norm, summed from the zero word. -/
def cenSq (k : Fin 1000) : EReal := w0 + ∑ d : Fin 1024, c (ix2 k d) * c (ix2 k d)
/-- The inner product of a row and a centroid. -/
def cross (n : Fin 32768) (k : Fin 1000) : EReal := ∑ d : Fin 1024, h (ix2 n d) * c (ix2 k d)
/-- The similarity of row `n` and centroid `k`. -/
def sim (n : Fin 32768) (k : Fin 1000) : EReal := simPow (rowSq h n) (cenSq c k) (cross h c n k)

/-- THE RESULT: each row of similarities divided by its sum (taken from the zero word). -/
def assign : SOut.Idx → EReal := fun i => Ideal.div (sim h c (i 0) (i 1)) (w0 + ∑ k : Fin 1000, sim h c (i 0) k)

/-! ## The padded arrangement -/

/-- The centroid table padded to 1024 rows with the value `z`. -/
def cenPad (z : EReal) (k : Fin 1024) (d : Fin 1024) : EReal := if hk : k.val < 1000 then c (ix2 ⟨k.val, hk⟩ d) else z
/-- The lane mask: one below lane 1000, zero from there on. -/
def laneMask (k : Fin 1024) : EReal := if k.val < 1000 then 1 else 0

/-- A padded centroid's square norm. -/
def cenSqPad (z : EReal) (k : Fin 1024) : EReal := w0 + ∑ d : Fin 1024, cenPad c z k d * cenPad c z k d
/-- The inner product of a row and a padded centroid. -/
def crossPad (z : EReal) (n : Fin 32768) (k : Fin 1024) : EReal := ∑ d : Fin 1024, h (ix2 n d) * cenPad c z k d
/-- The similarity in the padded arrangement: a reciprocal; the row's square norm a bare sum. -/
def simPad (z : EReal) (n : Fin 32768) (k : Fin 1024) : EReal :=
  simInv (∑ d : Fin 1024, h (ix2 n d) * h (ix2 n d)) (cenSqPad c z k) (crossPad h c z n k)

/-- The padded arrangement's result on all 1024 lanes: the similarity over the masked row sum. -/
def assignPadded (z : EReal) : SOutP.Idx → EReal := fun i =>
  Ideal.div (simPad h c z (i 0) (i 1)) (∑ k : Fin 1024, simPad h c z (i 0) k * laneMask k)

/-! ## The two arrangements agree below lane 1000 -/

/-- Lane `k < 1000` as a lane of the padded table. -/
abbrev lane (k : Fin 1000) : Fin 1024 := Fin.castLE (by decide) k

theorem cenPad_lane (z : EReal) (k : Fin 1000) (d : Fin 1024) : cenPad c z (lane k) d = c (ix2 k d) := by
  unfold cenPad
  rw [dif_pos (show (lane k).val < 1000 from k.isLt)]
  rfl

theorem simPad_lane (z : EReal) (n : Fin 32768) (k : Fin 1000) : simPad h c z n (lane k) = sim h c n k := by
  unfold simPad sim cenSqPad crossPad rowSq cenSq cross
  simp only [cenPad_lane, simInv_eq_simPow, w0_eq, zero_add]

/-- A sum over 1024 lanes of terms masked from lane 1000 on is the sum over the first 1000 lanes. -/
theorem sum_mask (f : Fin 1024 → EReal) : ∑ k : Fin 1024, f k * laneMask k = ∑ k : Fin 1000, f (lane k) := by
  have e : ∑ k : Fin 1024, f k * laneMask k
      = ∑ i : Fin 1000, f (Fin.castAdd 24 i) * laneMask (Fin.castAdd 24 i)
        + ∑ i : Fin 24, f (Fin.natAdd 1000 i) * laneMask (Fin.natAdd 1000 i) :=
    Fin.sum_univ_add (a := 1000) (b := 24) (fun k => f k * laneMask k)
  rw [e]
  have hz : ∑ i : Fin 24, f (Fin.natAdd 1000 i) * laneMask (Fin.natAdd 1000 i) = 0 :=
    Finset.sum_eq_zero fun i _ => by
      have : laneMask (Fin.natAdd 1000 i) = 0 := by
        unfold laneMask; rw [if_neg]; simp [Fin.natAdd]
      rw [this, mul_zero]
  rw [hz, add_zero]
  refine Finset.sum_congr rfl fun k _ => ?_
  have : laneMask (Fin.castAdd 24 k) = 1 := by
    unfold laneMask; rw [if_pos]; simp
  rw [this, mul_one]
  rfl

/-- THE LAW: below lane 1000 the padded arrangement is the result. -/
theorem assignPadded_eq (z : EReal) (n : Fin 32768) (k : Fin 1000) :
    assignPadded h c z (ix2 n (lane k)) = assign h c (ix2 n k) := by
  unfold assignPadded assign
  show Ideal.div (simPad h c z n (lane k)) (∑ k' : Fin 1024, simPad h c z n k' * laneMask k')
     = Ideal.div (sim h c n k) (w0 + ∑ k' : Fin 1000, sim h c n k')
  rw [simPad_lane, sum_mask, w0_eq, zero_add]
  simp only [simPad_lane]

end Cert.SoftAssign

end
-- ==== Proof.RefAssign.lean ====
/-
  The reference computes `assign`.

  Its result, read one operation at a time at an index `(n, k)`: the quotient of the power
  `(1 + max (‖h n‖² + ‖c k‖² − 2·⟨h n, c k⟩) 0 / 1)^(−1)` by the sum of that power over the row's 1000 columns,
  each sum taken from the zero word — term for term the definition of `assign`. The only work is naming the
  indices the broadcasts, the reductions and the contraction read: `(n, d)` of the rows and `(k, d)` of the centroids.
-/
import proofs.«114486_j816043786553_1_alg».proof.Proof.Gen.ReferenceIdeal.Read
import proofs.«114486_j816043786553_1_alg».proof.Proof.SoftAssign

noncomputable section

namespace Cert.ReferenceIdeal.RefAssign

open Cert.ReferenceIdeal Cert.ReferenceIdeal.Read Idealize.ShloMosaic Idealize.ShloMosaic.ValueIdx Cert.SoftAssign

variable (x0 : (⟨S32768x1024, .f32⟩ : BufTy).Contents (Elt Ideal)) (x1 : (⟨S1000x1024, .f32⟩ : BufTy).Contents (Elt Ideal))

/-! ## The indices the operations read -/

/-- The row's square norm is broadcast along the columns: at `(n, k)` it sums the row's entries `(n, d)`. -/
theorem row_idx (n : Fin 32768) (k : Fin 1000) (d : Fin 1024) :
    idx_main_v1 (idx_main_v2 (idx_main_v7 (ix2 n k))) d = ix2 n d :=
  funext fun a => Fin.ext (by match a with | ⟨0, _⟩ => rfl | ⟨1, _⟩ => rfl)

/-- The centroid's square norm is broadcast along the rows: at `(n, k)` it sums the centroid's entries `(k, d)`. -/
theorem cen_idx (n : Fin 32768) (k : Fin 1000) (d : Fin 1024) :
    idx_main_v4 (idx_main_v6 (idx_main_v8 (ix2 n k))) d = ix2 k d :=
  funext fun a => Fin.ext (by match a with | ⟨0, _⟩ => rfl | ⟨1, _⟩ => rfl)

/-- The contraction at `(n, k)` pairs the row's entry `(n, d)` -/
theorem lhs_idx (n : Fin 32768) (k : Fin 1000) (d : Fin 1024) : lidx_main_v5 (ix2 n k) d = ix2 n d :=
  funext fun a => Fin.ext (by match a with | ⟨0, _⟩ => rfl | ⟨1, _⟩ => rfl)

/-- with the centroid's entry `(k, d)`. -/
theorem rhs_idx (n : Fin 32768) (k : Fin 1000) (d : Fin 1024) : ridx_main_v5 (ix2 n k) d = ix2 k d :=
  funext fun a => Fin.ext (by match a with | ⟨0, _⟩ => rfl | ⟨1, _⟩ => rfl)

/-- The row sum of the similarities is broadcast along the columns: at `(n, k)` it sums the entries `(n, k')`. -/
theorem sum_idx (n : Fin 32768) (k : Fin 1000) (k' : Fin 1000) :
    idx_main_v21 (idx_main_v22 (idx_main_v23 (ix2 n k))) k' = ix2 n k' :=
  funext fun a => Fin.ext (by match a with | ⟨0, _⟩ => rfl | ⟨1, _⟩ => rfl)

/-! ## The similarity, then the result -/

/-- The power stage at `(n, k)` is the similarity of row `n` and centroid `k`. -/
theorem power_apply (n : Fin 32768) (k : Fin 1000) : val_main_v20 (F := Ideal) x0 x1 (ix2 n k) = sim x0 x1 n k := by
  rw [val_main_v20_apply, val_main_v18_apply, val_main_v19_apply, val_main_v17_apply, val_main_v16_apply,
    val_main_v14_apply, val_main_v15_apply, val_main_v13_apply, val_main_v12_apply, val_main_v9_apply,
    val_main_v11_apply, val_main_v7_apply, val_main_v8_apply, val_main_v2_apply, val_main_v6_apply,
    val_main_v1_apply, val_main_v4_apply, val_main_v10_apply, val_main_v5_apply]
  simp only [row_idx, cen_idx, lhs_idx, rhs_idx, val_main_v0_apply, val_main_v3_apply, val_main_cst_apply,
    val_main_cst_0_apply, val_main_cst_1_apply, val_main_cst_2_apply, val_main_cst_3_apply, val_main_cst_4_apply,
    val_main_cst_5_apply, Ideal.ofBits_def, Ideal.mulf_def, Ideal.addf_def, Ideal.subf_def, Ideal.maximumf_def,
    Ideal.hostDivf_def, Ideal.hostPowf_def]
  rfl

/-- THE REFERENCE'S RESULT is `assign` of its two arguments. -/
theorem result_eq : val_main_v24 (F := Ideal) x0 x1 = assign x0 x1 := by
  funext i
  obtain ⟨n, k, rfl⟩ : ∃ (n : Fin 32768) (k : Fin 1000), i = ix2 n k := ⟨i 0, i 1, eq_ix2 i⟩
  rw [val_main_v24_apply, val_main_v23_apply, val_main_v22_apply, val_main_v21_apply]
  simp only [sum_idx, power_apply, val_main_cst_6_apply, Ideal.ofBits_def, Ideal.hostDivf_def]
  rfl

end Cert.ReferenceIdeal.RefAssign

end
-- ==== Proof.KernelBlock.lean ====
/-
  What the kernel body stores for one block of 1024 rows, index by index.

  From the block `x` of rows, the resident table `ct` (centroids transposed: entry `(d, k)` is coordinate `d` of
  padded centroid `k`) and the resident row `cs` of the padded centroids' square norms, the body stores at `(r, k)`
      s(r,k) / Σ_{k' < 1024} s(r,k') · mask(k'),      s(r,k) = 1 / (1 + max (Σ_d x(r,d)² + cs(k) − 2·Σ_d x(r,d)·ct(d,k)) 0 / 1):
  the lane reduction is the sum over the lane coordinate, the matrix product into a zero accumulator the sum over the
  contracted coordinate, the rounding to bf16 the identity, the column kept by `keepdims` and broadcast back reads its
  row, the one-row operands broadcast along the rows read their lane, and the mask `(lane < 1000)` converted to a
  float is 1 below lane 1000 and 0 from there on.
-/
import proofs.«114486_j816043786553_1_alg».proof.Proof.Gen.KernelIdeal.Skeleton
import proofs.«114486_j816043786553_1_alg».proof.Proof.SoftAssign
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.SoftAssign

/-! ## The operations that are not pointwise, each read at an index -/

/-- A vector of 1024 row values kept as a column (`keepdims`) and broadcast along the lanes reads, at `(r, k)`, row `r`'s value. -/
theorem column_apply (w : FVec Ideal S1024 .f32) (hc : S1024.ShapeCasts S1024x1) (hb : S1024x1.Broadcasts S1024x1024)
    (r k : Fin 1024) : broadcastTo S1024x1024 (shapeCast S1024x1 w hc) hb (ix2 r k) = w (ix1 r) := by
  refine (broadcastTo_apply _ hb (ix2 r k) (ix2 r (0 : Fin 1)) fun a => ?_).trans ?_
  · match a with
    | ⟨0, _⟩ => show r.val = if (1024 : Nat) = 1 then 0 else r.val; rw [if_neg (by decide)]
    | ⟨1, _⟩ => show 0 = if (1 : Nat) = 1 then 0 else k.val; rw [if_pos rfl]
  · refine shapeCast_apply w hc (ix2 r (0 : Fin 1)) (ix1 r) ?_
    rw [Shape.rowMajor_val_one, Shape.rowMajor_val_two]
    show r.val = r.val * 1 + 0
    omega

/-- The sum along the lanes of a [1024, 1024] vector, at row `r`: the sum over the lane coordinate. -/
theorem laneSum_apply (v : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ d : Fin 1024, v (ix2 r d) := by
  refine (Ideal.multiReduction_add_single v 0x00000000#32 h hφ hacc (ix1 r)).trans ?_
  refine Finset.sum_congr rfl fun d _ => congrArg v ?_
  exact funext fun a => Fin.ext (by match a with | ⟨0, _⟩ => rfl | ⟨1, _⟩ => rfl)

/-- The left operand's row coordinate is the output's row. -/
theorem lhs_row (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- The right operand's column coordinate is the output's column. -/
theorem rhs_col (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The matrix product `a · b` into a zero accumulator, at `(r, k)`: the sum over the contracted coordinate `d` of
    `a (r, d) · b (d, k)`. -/
theorem product_apply (a b : FVec Ideal S1024x1024 .bf16) (r k : Fin 1024) :
    matmul dot_S1024x1024_S1024x1024_S1024x1024_1_0_0_1_n_n none a b (constant S1024x1024 .f32 0x00000000#32) (ix2 r k)
      = ∑ d : Fin 1024, a (ix2 r d) * b (ix2 d k) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun d _ => ?_
  have hk := contrEquiv1_symm_val dot_S1024x1024_S1024x1024_S1024x1024_1_0_0_1_n_n 1024 rfl rfl d
  have el : dot_S1024x1024_S1024x1024_S1024x1024_1_0_0_1_n_n.lhsIdx (ix2 r k)
      ((contrEquiv1 dot_S1024x1024_S1024x1024_S1024x1024_1_0_0_1_n_n 1024 rfl rfl).symm d) = ix2 r d :=
    funext fun ax => Fin.ext (by
      match ax with
      | ⟨0, _⟩ => exact lhs_row _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r k)
      ((contrEquiv1 dot_S1024x1024_S1024x1024_S1024x1024_1_0_0_1_n_n 1024 rfl rfl).symm d) = ix2 d k :=
    funext fun ax => Fin.ext (by
      match ax with
      | ⟨0, _⟩ => exact (dot_S1024x1024_S1024x1024_S1024x1024_1_0_0_1_n_n.rhsIdx_val_of_single rfl _ _).trans hk
      | ⟨1, _⟩ => exact rhs_col _ _)
  rw [el, er]

/-! ## The body's intermediate vectors -/

variable (x : FVec Ideal S1024x1024 .f32) (ct : FVec Ideal S1024x1024 .bf16) (cs : FVec Ideal S1x1024 .f32)

/-- The rows' square norms, a column broadcast along the lanes. -/
def rowSqVec : FVec Ideal S1024x1024 .f32 :=
  broadcastTo S1024x1024 (shapeCast S1024x1 (multiReduction .add [1] S1024 (mulf x x) 0x00000000#32
    reduces_S1024x1024_S1024 (.inl rfl) rfl) shapeCasts_S1024_S1024x1) broadcasts_S1024x1_S1024x1024
/-- The padded centroids' square norms, a row broadcast along the rows. -/
def cenSqVec : FVec Ideal S1024x1024 .f32 :=
  broadcastTo S1024x1024 (shapeCast S1x1024 cs shapeCasts_S1x1024_S1x1024) broadcasts_S1x1024_S1024x1024
/-- The inner products of the rows (rounded to bf16: the identity) with the table's columns. -/
def crossVec : FVec Ideal S1024x1024 .f32 :=
  matmul dot_S1024x1024_S1024x1024_S1024x1024_1_0_0_1_n_n none (truncf .bf16 x bitsLt_bf16_f32)
    (shapeCast S1024x1024 ct shapeCasts_S1024x1024_S1024x1024) (constant S1024x1024 .f32 0x00000000#32)
/-- The similarities, as reciprocals. -/
def simVec : FVec Ideal S1024x1024 .f32 := fun i => simInv (rowSqVec x i) (cenSqVec cs i) (crossVec x ct i)
/-- The lane mask as the body builds it: `(lane < 1000)` widened to an integer word and converted to a float. -/
def maskVec : FVec Ideal S1x1024 .f32 :=
  sitofp .f32 (extui 32 (cmpi .slt (iota .tc S1x1024 32 [1] iota_S1x1024_d1_w32) (broadcast S1x1024 1000#32)) natLt_1_32)

/-- The body's stored value is the similarities over their masked lane sums. -/
theorem pay_eq : k0_pay1 (F := Ideal) x ct cs = divf (simVec x ct cs)
    (broadcastTo S1024x1024 (shapeCast S1024x1 (multiReduction .add [1] S1024
      (mulf (simVec x ct cs) (broadcastTo S1024x1024 maskVec broadcasts_S1x1024_S1024x1024)) 0x00000000#32
      reduces_S1024x1024_S1024 (.inl rfl) rfl) shapeCasts_S1024_S1024x1) broadcasts_S1024x1_S1024x1024) := rfl

/-! ## Each read at an index -/

/-- The similarity of block row `r` and lane `k`, from the three blocks. -/
def blockSim (r k : Fin 1024) : EReal :=
  simInv (∑ d : Fin 1024, x (ix2 r d) * x (ix2 r d)) (cs (ix2 (0 : Fin 1) k)) (∑ d : Fin 1024, x (ix2 r d) * ct (ix2 d k))

theorem rowSqVec_apply (r k : Fin 1024) : rowSqVec x (ix2 r k) = ∑ d : Fin 1024, x (ix2 r d) * x (ix2 r d) := by
  unfold rowSqVec
  refine (column_apply _ _ _ r k).trans ?_
  exact laneSum_apply (mulf x x) _ _ _ r

theorem cenSqVec_apply (r k : Fin 1024) : cenSqVec cs (ix2 r k) = cs (ix2 (0 : Fin 1) k) := by
  unfold cenSqVec
  refine (broadcastTo_1b_ab_apply _ _ r k).trans ?_
  rw [shapeCast_self]

theorem crossVec_apply (r k : Fin 1024) : crossVec x ct (ix2 r k) = ∑ d : Fin 1024, x (ix2 r d) * ct (ix2 d k) := by
  unfold crossVec
  refine (product_apply _ _ r k).trans ?_
  rw [shapeCast_self]
  rfl

theorem simVec_apply (r k : Fin 1024) : simVec x ct cs (ix2 r k) = blockSim x ct cs r k := by
  unfold simVec blockSim
  rw [rowSqVec_apply, cenSqVec_apply, crossVec_apply]

/-- The mask at lane `k`: one below lane 1000, zero from there on. -/
theorem maskVec_apply (k : Fin 1024) : maskVec (ix2 (0 : Fin 1) k) = laneMask k := by
  have key : ∀ k : Fin 1024,
      ((IntOp.cmpi .slt (BitVec.ofNat 32 k.val) 1000#32).setWidth 32).toInt = if k.val < 1000 then 1 else 0 := by
    decide +kernel
  unfold maskVec
  show ((((IntOp.cmpi .slt (iota .tc S1x1024 32 [1] iota_S1x1024_d1_w32 (ix2 (0 : Fin 1) k)) 1000#32).setWidth 32).toInt : ℝ) : EReal) = _
  rw [iota_single_apply]
  show ((((IntOp.cmpi .slt (BitVec.ofNat 32 k.val) 1000#32).setWidth 32).toInt : ℝ) : EReal) = _
  rw [key k]
  unfold laneMask
  split <;> simp

/-- THE BLOCK: what the body stores at `(r, k)`. -/
theorem pay_apply (r k : Fin 1024) :
    k0_pay1 (F := Ideal) x ct cs (ix2 r k)
      = Ideal.div (blockSim x ct cs r k) (∑ k' : Fin 1024, blockSim x ct cs r k' * laneMask k') := by
  rw [pay_eq]
  show Ideal.div (simVec x ct cs (ix2 r k)) (broadcastTo S1024x1024 (shapeCast S1024x1 (multiReduction .add [1] S1024
      (mulf (simVec x ct cs) (broadcastTo S1024x1024 maskVec broadcasts_S1x1024_S1024x1024)) 0x00000000#32
      reduces_S1024x1024_S1024 (.inl rfl) rfl) shapeCasts_S1024_S1024x1) broadcasts_S1024x1_S1024x1024 (ix2 r k)) = _
  rw [simVec_apply]
  refine congrArg _ ((column_apply _ _ _ r k).trans ((laneSum_apply _ _ _ _ r).trans ?_))
  refine Finset.sum_congr rfl fun k' _ => ?_
  show simVec x ct cs (ix2 r k') * broadcastTo S1024x1024 maskVec broadcasts_S1x1024_S1024x1024 (ix2 r k') = _
  rw [simVec_apply, broadcastTo_1b_ab_apply, maskVec_apply]

/-- THE BLOCK AS A PIECE OF THE WHOLE: when the rows block holds the rows `row r` of `h`, the table holds the padded
    centroids transposed and the one-row operand their square norms, the body's value at `(r, k)` is the padded
    arrangement at `(row r, k)`. -/
theorem block_eq (h : SRows.Idx → EReal) (cen : SCen.Idx → EReal) (z : EReal) (row : Fin 1024 → Fin 32768)
    (hx : ∀ r d, x (ix2 r d) = h (ix2 (row r) d))
    (hct : ∀ d k, ct (ix2 d k) = cenPad cen z k d)
    (hcs : ∀ k, cs (ix2 (0 : Fin 1) k) = cenSqPad cen z k) (r k : Fin 1024) :
    k0_pay1 (F := Ideal) x ct cs (ix2 r k) = assignPadded h cen z (ix2 (row r) k) := by
  have hs : ∀ k', blockSim x ct cs r k' = simPad h cen z (row r) k' := fun k' => by
    unfold blockSim simPad crossPad
    simp only [hx, hct, hcs]
  rw [pay_apply]
  simp only [hs]
  rfl

end Cert.KernelIdeal.Block

end
-- ==== Proof.KernelTables.lean ====
/-
  The two resident operands of the kernel, as the host operations before the launch leave them.

  The centroid table is padded with 24 rows of the padding value (the integer zero converted to a float) to 1024 rows,
  rounded to bf16 (the identity) and transposed: the table's entry `(d, k)` is coordinate `d` of padded centroid `k`.
  The one-row operand is the padded table's square norms: entry `(0, k)` is the zero word plus the sum over `d` of the
  squares of padded centroid `k`'s coordinates.
-/
import proofs.«114486_j816043786553_1_alg».proof.Proof.Gen.KernelIdeal.Frame
import proofs.«114486_j816043786553_1_alg».proof.Proof.SoftAssign
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

noncomputable section

namespace Cert.KernelIdeal.Tables

open Cert.KernelIdeal Cert.KernelIdeal.Gen Idealize.ShloMosaic Idealize.ShloMosaic.TcCoe Idealize.SL.Sem
open Idealize.ShloMosaic.StableHlo Idealize.ShloMosaic.ValueIdx Cert.SoftAssign

/-- The padding value: the integer zero converted to a float. -/
def padValue : EReal := FloatOps.sitofp (F := Ideal) .f32 (0#32 : BitVec 32)

/-- The centroid table padded to 1024 rows, as the host writes it. -/
def padded (cen : FVec Ideal S1000x1024 .f32) : FVec Ideal S1024x1024 .f32 :=
  pad S1024x1024 ![0, 0] ![24, 0] ![0, 0] cen (sitofp (F := Ideal) .f32 (constantI S_ 32 0#32)) pads_S1000x1024_S1024x1024_0240_000 h_S_

/-- The padded table at `(k, d)`: the centroid below row 1000, the padding value from there on. -/
theorem padded_apply (cen : FVec Ideal S1000x1024 .f32) (k d : Fin 1024) :
    padded cen (ix2 k d) = cenPad cen padValue k d := by
  unfold padded cenPad
  by_cases hk : k.val < 1000
  · rw [dif_pos hk]
    refine pad_apply_of_inside _ _ _ cen _ _ _ (ix2 k d) (ix2 (⟨k.val, hk⟩ : Fin 1000) d) fun a => ?_
    match a with
    | ⟨0, _⟩ => show k.val = 0 + k.val * (0 + 1); omega
    | ⟨1, _⟩ => show d.val = 0 + d.val * (0 + 1); omega
  · rw [dif_neg hk]
    refine (pad_apply_of_not_inside _ _ _ cen _ _ _ (ix2 k d) (0 : Fin 2) ?_).trans rfl
    show ¬(0 ≤ k.val ∧ (k.val - 0) % (0 + 1) = 0 ∧ (k.val - 0) / (0 + 1) < 1000)
    simp only [Nat.sub_zero, Nat.zero_add, Nat.div_one]
    omega

/-- The host's sum of squares along a table's rows, at row `k`: the zero word plus the sum over `d` of the squares of
    the row's entries. -/
theorem rowNorms_apply (P : FVec Ideal S1024x1024 .f32) (k : Fin 1024) :
    Host.reduceAdd (F := Ideal) (mulf P P) (constant (F := Ideal) S_ .f32 0x00000000#32) reducesTo_S1024x1024_S1024_d1 h_S_ (ix1 k)
      = w0 + ∑ d : Fin 1024, P (ix2 k d) * P (ix2 k d) := by
  simp only [Host.reduceAdd, Ideal.hostReduceAdd_def]
  rw [Ideal.hostReduceAdd_single reducesTo_S1024x1024_S1024_d1 (by decide)]
  refine congrArg₂ (· + ·) rfl (Finset.sum_congr rfl fun d _ => ?_)
  exact congrArg (mulf P P) (funext fun a => Fin.ext (by match a with | ⟨0, _⟩ => rfl | ⟨1, _⟩ => rfl))

variable (m : (ℓ : Loc nD τ sig) → Buf (Elt Ideal) ℓ)

/-- The table the kernel's second window stages: the padded centroids, rounded to bf16 and transposed. -/
theorem table_eq (c : Dev nD) : (V m c main_v2 : S1024x1024.Idx → EReal)
    = transpose S1024x1024 [1, 0] (truncf .bf16 (padded (m ((c : Thread nD τ).loc main_arg1))) bitsLt_bf16_f32)
        transposes_S1024x1024_S1024x1024_1_0 := by
  dsimp only [V, V0]
  simp only [hostOps0, hostOps0_1, hostOps0_2, List.flatten_cons, List.flatten_nil, List.append_nil, List.cons_append,
    List.nil_append]
  after_results
  rfl

/-- The one-row operand the kernel's third window stages: the padded centroids' square norms. -/
theorem norms_eq (c : Dev nD) : (V m c main_v5 : S1x1024.Idx → EReal)
    = broadcastInDim S1x1024 ![1] bcast_S1024_S1x1024_1
        (Host.reduceAdd (F := Ideal) (mulf (padded (m ((c : Thread nD τ).loc main_arg1))) (padded (m ((c : Thread nD τ).loc main_arg1))))
          (constant (F := Ideal) S_ .f32 0x00000000#32) reducesTo_S1024x1024_S1024_d1 h_S_) := by
  dsimp only [V, V0]
  simp only [hostOps0, hostOps0_1, hostOps0_2, List.flatten_cons, List.flatten_nil, List.append_nil, List.cons_append,
    List.nil_append]
  after_results
  rfl

/-- The table at `(d, k)`: coordinate `d` of padded centroid `k`. -/
theorem table_apply (c : Dev nD) (d k : Fin 1024) :
    (V m c main_v2 : S1024x1024.Idx → EReal) (ix2 d k) = cenPad (m ((c : Thread nD τ).loc main_arg1)) padValue k d := by
  rw [table_eq]
  refine (transpose_ix2_apply _ _ d k).trans ?_
  exact padded_apply _ k d

/-- The one-row operand at lane `k`: the square norm of padded centroid `k`. -/
theorem norms_apply (c : Dev nD) (k : Fin 1024) :
    (V m c main_v5 : S1x1024.Idx → EReal) (ix2 (0 : Fin 1) k) = cenSqPad (m ((c : Thread nD τ).loc main_arg1)) padValue k := by
  rw [norms_eq]
  refine (broadcastInDim_apply _ bcast_S1024_S1x1024_1 _ (ix2 (0 : Fin 1) k) (ix1 k) fun a => ?_).trans ?_
  · match a with
    | ⟨0, _⟩ => show k.val = if (1024 : Nat) = 1 then 0 else k.val; rw [if_neg (by decide)]
  · refine (rowNorms_apply _ k).trans ?_
    unfold cenSqPad
    simp only [padded_apply]

end Cert.KernelIdeal.Tables

end
-- ==== Proof.KernelArray.lean ====
/-
  From blocks to the array, and the kernel's run.

  Grid point `t` (of 32) stages rows `1024·t … 1024·t + 1023` of the first argument, the whole transposed table and the
  whole row of square norms, and writes back block `t` of the 32768 × 1024 result. By the block lemma that block is
  the padded arrangement read at those rows; the 32 blocks tile the array (row `n` is in block `n / 1024`), so the
  array ends holding the padded arrangement of the two arguments. The host operation after the launch keeps lanes
  `0 … 999` of it, where the padded arrangement is `assign`.
-/
import proofs.«114486_j816043786553_1_alg».proof.Proof.Gen.KernelIdeal.Frame
import proofs.«114486_j816043786553_1_alg».proof.Proof.KernelBlock
import proofs.«114486_j816043786553_1_alg».proof.Proof.KernelTables
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.SoftAssign
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at grid point `t`: the rows window and the result window are at block row `t`; the two resident
    windows stay at block `(0, 0)`. Decided over the 32 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks at a point -/

/-- The rows block at point `t`: entry `(r, d)` is the argument's entry `(1024·t + r, d)`. -/
theorem rows_apply (c : Dev nD) (t : Fin cfg0.N) (r d : Fin 1024) (n : Fin 32768) (hn : n.val = t.val * 1024 + r.val) :
    (iblk m c 0 t : Vec Ideal S1024x1024 .f32) (ix2 r d)
      = (m ((c : Thread nD τ).loc main_arg0) : S32768x1024.Idx → EReal) (ix2 n d) := by
  obtain ⟨e00, e01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * r.val = n.val; rw [e00, hn]; omega
  | ⟨1, _⟩ => show win0_0.index t (1 : Fin 2) * 1024 + 1 * d.val = d.val; rw [e01]; omega

/-- The table's block at any point is the whole table. -/
theorem table_blk_apply (c : Dev nD) (t : Fin cfg0.N) (d k : Fin 1024) :
    (iblk m c 1 t : Vec Ideal S1024x1024 .bf16) (ix2 d k) = (V m c main_v2 : S1024x1024.Idx → EReal) (ix2 d k) := by
  obtain ⟨-, -, e10, e11, -⟩ := idx_facts t
  unfold iblk
  rw [View.read_apply]
  show V m c main_v2 _ = _
  refine congrArg _ (funext fun a => Fin.ext ?_)
  match a with
  | ⟨0, _⟩ => show win0_1.index t (0 : Fin 2) * 1024 + 1 * d.val = d.val; rw [e10]; omega
  | ⟨1, _⟩ => show win0_1.index t (1 : Fin 2) * 1024 + 1 * k.val = k.val; rw [e11]; omega

/-- The norms' block at any point is the whole row. -/
theorem norms_blk_apply (c : Dev nD) (t : Fin cfg0.N) (k : Fin 1024) :
    (iblk m c 2 t : Vec Ideal S1x1024 .f32) (ix2 (0 : Fin 1) k) = (V m c main_v5 : S1x1024.Idx → EReal) (ix2 (0 : Fin 1) k) := by
  obtain ⟨-, -, -, -, e20, e21, -⟩ := idx_facts t
  unfold iblk
  rw [View.read_apply]
  show V m c main_v5 _ = _
  refine congrArg _ (funext fun a => Fin.ext ?_)
  match a with
  | ⟨0, _⟩ => show win0_2.index t (0 : Fin 2) * 1 + 1 * 0 = 0; rw [e20]
  | ⟨1, _⟩ => show win0_2.index t (1 : Fin 2) * 1024 + 1 * k.val = k.val; rw [e21]; omega

/-! ## The result array -/

/-- What the result window's array ends holding: the padded arrangement of the two arguments. -/
def arrayValue (c : Dev nD) : S32768x1024.Idx → EReal :=
  assignPadded (m ((c : Thread nD τ).loc main_arg0)) (m ((c : Thread nD τ).loc main_arg1)) Tables.padValue

/-- Row `r` of point `t`'s block is row `1024·t + r` of the array. -/
def rowAt (t : Fin cfg0.N) (r : Fin 1024) : Fin 32768 :=
  ⟨t.val * 1024 + r.val, by have := t.isLt; have hN : cfg0.N = 32 := N_0; have := r.isLt; omega⟩

/-- WHAT POINT `t` WRITES BACK is block `t` of `arrayValue`. -/
theorem flushed_eq (c : Dev nD) (t : Fin cfg0.N) :
    (dats m 0 c).flushed 3 t = ((cfg0.win 3).blk t).view.read (Elt Ideal) (arrayValue m c) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  obtain ⟨-, -, -, -, -, -, e30, e31⟩ := idx_facts t
  funext j
  show k0_pay1 (F := Ideal) (iblk m c 0 t) (iblk m c 1 t) (iblk m c 2 t) j = arrayValue m c (((cfg0.win 3).blk t).view.emb j)
  have hemb : ((cfg0.win 3).blk t).view.emb j = ix2 (rowAt t (j 0)) (j 1) := funext fun a => Fin.ext (by
    match a with
    | ⟨0, _⟩ => show win0_3.index t (0 : Fin 2) * 1024 + 1 * (j 0).val = t.val * 1024 + (j 0).val; rw [e30]; omega
    | ⟨1, _⟩ => show win0_3.index t (1 : Fin 2) * 1024 + 1 * (j 1).val = (j 1).val; rw [e31]; omega)
  rw [hemb]
  refine (congrArg (k0_pay1 (F := Ideal) (iblk m c 0 t) (iblk m c 1 t) (iblk m c 2 t)) (eq_ix2 j)).trans ?_
  exact Block.block_eq (iblk m c 0 t) (iblk m c 1 t) (iblk m c 2 t)
    (m ((c : Thread nD τ).loc main_arg0)) (m ((c : Thread nD τ).loc main_arg1)) Tables.padValue (rowAt t)
    (fun r d => rows_apply m c t r d (rowAt t r) rfl)
    (fun d k => (table_blk_apply m c t d k).trans (Tables.table_apply m c d k))
    (fun k => (norms_blk_apply m c t k).trans (Tables.norms_apply m c k)) (j 0) (j 1)

/-- An index of the array is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- Every index of the array is in some point's block: row `n` is in block `n / 1024`. -/
theorem cover (i : S32768x1024.Idx) :
    ∃ t : Fin cfg0.N, (cfg0.win 3).flush t = true ∧ i ∈ ((cfg0.win 3).blk t).view.set := by
  have hN : cfg0.N = 32 := N_0
  have hi0 : (i 0).val < 32768 := (i 0).isLt
  have hi1 : (i 1).val < 1024 := (i 1).isLt
  have ht : (i 0).val / 1024 < cfg0.N := by rw [hN]; omega
  obtain ⟨-, -, -, -, -, -, e30, e31⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [e31]; omega

/-- THE ARRAY after the launch is `arrayValue`. -/
theorem final (c : Dev nD) : (dats m 0 c).arrAt 3 cfg0.N = arrayValue m c :=
  (dats m 0 c).arrAt_eq_of_cover 3 (arrayValue m c) (fun t _ => flushed_eq m c t) cover

/-! ## The host operation after the launch, and the run -/

/-- The kept lanes of the padded arrangement are `assign`. -/
theorem slice_eq (c : Dev nD) :
    extractStridedSlice S32768x1000 ![0, 0] (arrayValue m c) slices_S32768x1024_S32768x1000_0_0
      = assign (m ((c : Thread nD τ).loc main_arg0)) (m ((c : Thread nD τ).loc main_arg1)) := by
  funext i
  obtain ⟨n, k, rfl⟩ : ∃ (n : Fin 32768) (k : Fin 1000), i = ix2 n k := ⟨i 0, i 1, eq_ix2 i⟩
  refine (extractStridedSlice_apply _ (arrayValue m c) _ (ix2 n k) (ix2 n (lane k)) fun a => ?_).trans ?_
  · match a with
    | ⟨0, _⟩ => show n.val = 0 + n.val; omega
    | ⟨1, _⟩ => show k.val = 0 + k.val; omega
  · exact assignPadded_eq _ _ _ n k

/-- The program's result buffer after the lines that follow the launch: the slice of the result window's array. -/
theorem tail_eq (c : Dev nD) :
    Pipeline.afterTail₀ cfgs (dats m) 0 (V0 m) [hostOps1] c main_v7
      = assign (m ((c : Thread nD τ).loc main_arg0)) (m ((c : Thread nD τ).loc main_arg1)) := by
  unfold Pipeline.afterTail₀
  show StableHlo.after hostOps1 _ (Proc.devRef .tc main_v7) = _
  after_results
  rw [Pipeline.withArrays_arr spec0 launch0.win.arr_inj c _ _ 3, final]
  exact slice_eq m c

/-- THE KERNEL'S RUN: every weakly fair execution terminates with the result at `assign` of the arguments, which end
    unchanged. -/
theorem run : θ_run defs (onTc (τ := τ) (main (F := Ideal))) ⟨m, fun _ => 0, ρ⟩ fun r => ∀ c : Dev nD,
      r.2.mem ((c.tc : Thread nD τ).loc main_v7) = assign (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Whole

end
-- ==== Proof.lean ====
/-
  Soft assignment of 32768 rows to 1000 centroids by a Student-t similarity with one degree of freedom: the Pallas
  kernel against its jnp reference, equal as extended reals.

  Both compute, for row `h n` and centroid `c k` (each in `EReal^1024`),
      q(n,k) = s(n,k) / Σ_{k' < 1000} s(n,k'),    s(n,k) = (1 + max (‖h n‖² + ‖c k‖² − 2·⟨h n, c k⟩) 0 / 1)^(−1).
  The reference (Proof/RefAssign.lean) is this formula operation for operation. The kernel (Proof/KernelBlock.lean,
  Proof/KernelTables.lean, Proof/KernelArray.lean) pads the centroid table with 24 rows to 1024 lanes, takes the inner
  products by a matrix product with the transposed table, writes the similarity as a reciprocal, sums a row's 1024
  similarities under a 0/1 mask that is 1 below lane 1000, works on 32 blocks of 1024 rows, and the host keeps lanes
  `0 … 999` of what it wrote. The two agree (Proof/SoftAssign.lean) because a power with exponent `−1` of a positive
  extended real is its reciprocal (`1 + max · 0 / 1 ≥ 1`; both are `0` at `+∞`), a masked lane contributes `s · 0 = 0`
  whatever `s` is, a lane below 1000 reads the centroid itself, and the zero word a sum starts from is `0`. The
  precondition is not used by the value argument.

  The frames of the two kernel programs are the generated ones; the reference's frame is its run with the result
  dropped; the ideal pass rewrote nothing, so `preserves` is `True`.
-/
import proofs.«114486_j816043786553_1_alg».proof.Defs
import proofs.«114486_j816043786553_1_alg».proof.Proof.Gen.Kernel
import proofs.«114486_j816043786553_1_alg».proof.Proof.Gen.Kernel.Skeleton
import proofs.«114486_j816043786553_1_alg».proof.Proof.Gen.Kernel.Launch
import proofs.«114486_j816043786553_1_alg».proof.Proof.Gen.Kernel.Points
import proofs.«114486_j816043786553_1_alg».proof.Proof.Gen.Kernel.Frame
import proofs.«114486_j816043786553_1_alg».proof.Proof.Gen.KernelIdeal
import proofs.«114486_j816043786553_1_alg».proof.Proof.Gen.KernelIdeal.Skeleton
import proofs.«114486_j816043786553_1_alg».proof.Proof.Gen.KernelIdeal.Launch
import proofs.«114486_j816043786553_1_alg».proof.Proof.Gen.KernelIdeal.Points
import proofs.«114486_j816043786553_1_alg».proof.Proof.Gen.KernelIdeal.Frame
import proofs.«114486_j816043786553_1_alg».proof.Proof.Gen.ReferenceIdeal
import proofs.«114486_j816043786553_1_alg».proof.Proof.Gen.ReferenceIdeal.Run
import proofs.«114486_j816043786553_1_alg».proof.Proof.Gen.ReferenceIdeal.Read
import proofs.«114486_j816043786553_1_alg».proof.Proof.Gen.Pre_finite_inputs
import proofs.«114486_j816043786553_1_alg».proof.Proof.RefAssign
import proofs.«114486_j816043786553_1_alg».proof.Proof.KernelArray
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: nothing was rewritten. -/
theorem preserves : Cert.preserves_Kernel_KernelIdeal := trivial

/-- From memories that agree on the two arguments both idealized programs end with the result at `assign` of the
    arguments: the kernel by its run (the padded arrangement, sliced), the reference by its run read one operation at
    a time. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefAssign.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
